-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S256x128 .f32) (main_arg6 : FVec F S256x128 .f32) (main_arg7 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x256 .f32) (main_arg3 : FVec F S128x256 .f32) (main_arg4 : FVec F S256 .f32) (main_arg5 : FVec F S256x128 .f32) (main_arg6 : FVec F S256x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S1x128 : Shape := ⟨2, ![1, 128]⟩

abbrev nBuf : Space → Nat
  | .hbm => 59
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S256x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x256, .f32⟩
  | .hbm, ⟨41, _⟩ => ⟨S50000x256, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x256, .f32⟩
  | .hbm, ⟨51, _⟩ => ⟨S_, .f32⟩
  | .hbm, ⟨52, _⟩ => ⟨S50000x256, .f32⟩
  | .hbm, ⟨53, _⟩ => ⟨S800000x1, .i32⟩
  | .hbm, ⟨54, _⟩ => ⟨S50000x256, .f32⟩
  | .hbm, ⟨55, _⟩ => ⟨S50000x256, .f32⟩
  | .hbm, ⟨56, _⟩ => ⟨S50000x256, .f32⟩
  | .hbm, ⟨57, _⟩ => ⟨S1x128, .f32⟩
  | .hbm, ⟨58, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x128, .f32⟩
  | .local _ .vmem, ⟨14, _⟩ => ⟨S256x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S128_S1x128 : S128.ShapeCasts S1x128
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S256x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x256, .f32⟩
  | .hbm, ⟨38, _⟩ => ⟨S50000x256, .f32⟩
  | .hbm, ⟨39, _⟩ => ⟨S50000x256, .f32⟩
  | .hbm, ⟨40, _⟩ => ⟨S1x256, .f32⟩
  | .hbm, ⟨41, _⟩ => ⟨S50000x256, .f32⟩
  | .hbm, ⟨42, _⟩ => ⟨S50000x256, .f32⟩
  | .hbm, ⟨43, _⟩ => ⟨S_, .f32⟩
  | .hbm, ⟨44, _⟩ => ⟨S50000x256, .f32⟩
  | .hbm, ⟨45, _⟩ => ⟨S50000x256, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x256, .f32⟩
  | .hbm, ⟨55, _⟩ => ⟨S_, .f32⟩
  | .hbm, ⟨56, _⟩ => ⟨S50000x256, .f32⟩
  | .hbm, ⟨57, _⟩ => ⟨S800000x1, .i32⟩
  | .hbm, ⟨58, _⟩ => ⟨S50000x256, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x256, .f32⟩
  | .hbm, ⟨70, _⟩ => ⟨S50000x256, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.LibPlainDot.lean ====
/-
  A plain matrix product read at an index.

  For the dimension numbers of an ordinary `[M, K] × [K, N] → [M, N]` product (the left operand's axis 1 contracted with the
  right operand's axis 0, no batch axis), the contraction index is its one coordinate, and the operand indices at output
  index `(p, q)` and contraction coordinate `k` are `(p, k)` and `(k, q)`.  So at the extended reals both the host's
  `dot_general` and a `tpu.matmul` into a zero accumulator are `∑ k : Fin K, l (p, k) · r (k, q)`.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction sum of a plain product, re-indexed by the contracted coordinate. -/
theorem plain_contr_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hl : (DotDims.plain M K N).lhsIdx (ix2 p q) ((contrEquiv1 (DotDims.plain M K N) K rfl rfl).symm k) = ix2 p k := by
    funext a
    refine Fin.ext ?_
    match a with
    | ⟨0, _⟩ => rfl
    | ⟨1, _⟩ =>
      refine ((DotDims.plain M K N).lhsIdx_val_of_single (cl := (1 : Fin 2)) rfl (ix2 p q) _).trans ?_
      exact contrEquiv1_symm_val (DotDims.plain M K N) K rfl rfl k
  have hr : (DotDims.plain M K N).rhsIdx (ix2 p q) ((contrEquiv1 (DotDims.plain M K N) K rfl rfl).symm k) = ix2 k q := by
    funext a
    refine Fin.ext ?_
    match a with
    | ⟨0, _⟩ =>
      refine ((DotDims.plain M K N).rhsIdx_val_of_single (cr := (0 : Fin 2)) rfl (ix2 p q) _).trans ?_
      exact contrEquiv1_symm_val (DotDims.plain M K N) K rfl rfl k
    | ⟨1, _⟩ => rfl
  rw [hl, hr]

/-- The host's `dot_general` with plain dimension numbers, at an index, over the extended reals. -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_contr_sum l r p q)

/-- A `tpu.matmul` with plain dimension numbers into the zero accumulator, at an index, over the extended reals. -/
theorem matmul_plain_zero_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_contr_sum l r p q)

end Cert.Lib

end
-- ==== Proof.Combine.lean ====
/-
  The arithmetic of one SAGE "combine" step and of the mean scaling, over the extended reals.

  A combine step sends a row `n` of the aggregated features `A` and of the root features `X` to
  `A[n,:] · Wl[:,q] + X[n,:] · Wr[:,q] + b[q]`.  The mean aggregation divides a neighbour sum by the clamped degree
  `max deg 1`; multiplying by the reciprocal `1 / max deg 1` is the same number, because the clamped degree is at least
  one, hence not zero, and off zero the quotient `x / y` is `x · y⁻¹` at every extended real `x`.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- The combine step at row `n` and output column `q`: two contractions over the feature axis and the bias row. -/
def comb {N K J : Nat} (A X : (⟨2, ![N, K]⟩ : Shape).Idx → EReal) (Wl Wr : (⟨2, ![K, J]⟩ : Shape).Idx → EReal)
    (B : (⟨2, ![1, J]⟩ : Shape).Idx → EReal) (n : Fin N) (q : Fin J) : EReal :=
  (∑ k : Fin K, A (ix2 n k) * Wl (ix2 k q)) + (∑ k : Fin K, X (ix2 n k) * Wr (ix2 k q)) + B (ix2 (0 : Fin 1) q)

/-- The f32 pattern of one is the extended real one. -/
theorem ofBits_one_f32 : Ideal.ofBits .f32 0x3F800000#32 = 1 := by
  simp [Ideal.ofBits, Ideal.ieee]
  rw [← EReal.coe_mul, ← EReal.coe_one]
  congr 1
  norm_num

/-- A clamped degree is not zero. -/
theorem max_one_ne_zero (d : EReal) : max d 1 ≠ 0 := fun h => by
  have h1 : (1 : EReal) ≤ max d 1 := le_max_right _ _
  rw [h] at h1
  exact absurd h1 (not_le.mpr zero_lt_one)

/-- Scaling by the reciprocal of a clamped degree is dividing by it, at every extended real. -/
theorem mul_recip_eq_div (s d : EReal) : s * Ideal.div 1 (max d 1) = Ideal.div s (max d 1) := by
  unfold Ideal.div
  rw [if_neg (max_one_ne_zero d), if_neg (max_one_ne_zero d), one_mul]

end Cert.Sage

end
-- ==== Proof.Body.lean ====
/-
  What each kernel body stores, read at one element.

  Both kernels take a tile of 2000 rows of the aggregated features and of the root features, the two weight matrices whole
  and the bias as one row, and store `agg · Wl + root · Wr + bias` (the first kernel followed by a maximum with zero).
  Over the extended reals the casts to bf16 are the identity, each matrix product into a zero accumulator is the plain
  sum over the contracted feature axis, and the bias row is broadcast down the tile's rows; so the stored element at
  tile row `p` and column `q` is the combine step `Cert.Sage.comb` of the loaded blocks at `(p, q)`.
-/
import proofs.«105659_j63522566308230_1_alg».proof.Proof.Gen.KernelIdeal.Skeleton
import proofs.«105659_j63522566308230_1_alg».proof.Proof.LibPlainDot
import proofs.«105659_j63522566308230_1_alg».proof.Proof.Combine
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

/-- The first kernel's product into a zero accumulator is the sum over the 128 input features. -/
theorem matmul0_apply (l : FVec Ideal S2000x128 .bf16) (r : FVec Ideal S128x256 .bf16) (p : Fin 2000) (q : Fin 256) :
    matmul dot_S2000x128_S128x256_S2000x256_1_0_0_1_n_n none l r (constant S2000x256 .f32 0x00000000#32) (ix2 p q)
      = ∑ k : Fin 128, l (ix2 p k) * r (ix2 k q) :=
  Cert.Lib.matmul_plain_zero_apply none l r p q

/-- The second kernel's product into a zero accumulator is the sum over the 256 hidden features. -/
theorem matmul1_apply (l : FVec Ideal S2000x256 .bf16) (r : FVec Ideal S256x128 .bf16) (p : Fin 2000) (q : Fin 128) :
    matmul dot_S2000x256_S256x128_S2000x128_1_0_0_1_n_n none l r (constant S2000x128 .f32 0x00000000#32) (ix2 p q)
      = ∑ k : Fin 256, l (ix2 p k) * r (ix2 k q) :=
  Cert.Lib.matmul_plain_zero_apply none l r p q

/-- The first kernel's stored tile at `(p, q)`: the combine step of its loaded blocks, clamped below at zero. -/
theorem pay0_apply (x0 x1 : Vec Ideal S2000x128 .f32) (x2 x3 : Vec Ideal S128x256 .f32) (x4 : Vec Ideal S1x256 .f32)
    (p : Fin 2000) (q : Fin 256) :
    k0_pay1 (F := Ideal) x0 x1 x2 x3 x4 (ix2 p q) = max (Cert.Sage.comb x0 x1 x2 x3 x4 p q) 0 := by
  unfold k0_pay1 Cert.Sage.comb
  simp only [maximumf_apply, addf_apply, matmul0_apply, truncf_apply, shapeCast_self, broadcastTo_1b_ab_apply,
    broadcast_apply, Ideal.ofBits_def, Ideal.ofBits_zero_f32]

/-- The second kernel's stored tile at `(p, q)`: the combine step of its loaded blocks. -/
theorem pay1_apply (x0 x1 : Vec Ideal S2000x256 .f32) (x2 x3 : Vec Ideal S256x128 .f32) (x4 : Vec Ideal S1x128 .f32)
    (p : Fin 2000) (q : Fin 128) :
    k1_pay1 (F := Ideal) x0 x1 x2 x3 x4 (ix2 p q) = Cert.Sage.comb x0 x1 x2 x3 x4 p q := by
  unfold k1_pay1 Cert.Sage.comb
  simp only [addf_apply, matmul1_apply, truncf_apply, shapeCast_self, broadcastTo_1b_ab_apply]

end Cert.KernelIdeal.Hand

end
-- ==== Proof.Region0.lean ====
/-
  The array that pallas_call 0 leaves, as one function of the arrays it is entered with.

  The call walks 25 tiles of 2000 rows.  At tile `t` the aggregated and the root features contribute rows
  `2000 t … 2000 t + 1999`, the two weight matrices and the bias row are taken whole, and the tile written back is rows
  `2000 t … 2000 t + 1999` of the result.  Row `n` lies in tile `n / 2000`, so the 25 write-backs cover the result, which
  therefore ends holding, at `(n, q)`, the combine step of the entry arrays at row `n` and column `q` clamped below at zero.
-/
import proofs.«105659_j63522566308230_1_alg».proof.Proof.Gen.KernelIdeal.Frame
import proofs.«105659_j63522566308230_1_alg».proof.Proof.Body
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets0 : (![0, 0] : Fin 2 → Nat) = fun _ => 0 := funext fun a => by fin_cases a <;> rfl

/-- The printed index maps over the grid: the row-tiled windows sit at block row `t`, the whole-array windows at block zero. -/
theorem tile_index0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of tile `t` is row `2000 t + p` of the array. -/
def tileRow0 (t : Fin cfg0.N) (p : Fin 2000) : Fin 50000 :=
  ⟨2000 * t.val + p.val, by have h : t.val < 25 := lt_of_lt_of_eq t.isLt N_0; have := p.isLt; omega⟩

/-- The aggregated features' block at tile `t` is their rows `2000 t …`. -/
theorem aggBlock0_apply (c : Dev nD) (t : Fin cfg0.N) (p : Fin 2000) (k : Fin 128) :
    (iblk0 V c 0 t : Vec Ideal S2000x128 .f32) (ix2 p k) = (V c main_v24 : S50000x128.Idx → EReal) (ix2 (tileRow0 t p) k) := by
  obtain ⟨e0, e1, -⟩ := tile_index0 t
  unfold iblk0
  rw [View.read_apply]
  show V c main_v24 _ = V c main_v24 _
  congr 1
  funext a
  apply Fin.ext
  match a with
  | ⟨0, _⟩ => show win0_0.index t (0 : Fin 2) * 2000 + 1 * p.val = 2000 * t.val + p.val; rw [e0]; omega
  | ⟨1, _⟩ => show win0_0.index t (1 : Fin 2) * 128 + 1 * k.val = k.val; rw [e1]; omega

/-- The root features' block at tile `t` is their rows `2000 t …`. -/
theorem rootBlock0_apply (c : Dev nD) (t : Fin cfg0.N) (p : Fin 2000) (k : Fin 128) :
    (iblk0 V c 1 t : Vec Ideal S2000x128 .f32) (ix2 p k) = (V c main_arg0 : S50000x128.Idx → EReal) (ix2 (tileRow0 t p) k) := by
  obtain ⟨-, -, e0, e1, -⟩ := tile_index0 t
  unfold iblk0
  rw [View.read_apply]
  show V c main_arg0 _ = V c main_arg0 _
  congr 1
  funext a
  apply Fin.ext
  match a with
  | ⟨0, _⟩ => show win0_1.index t (0 : Fin 2) * 2000 + 1 * p.val = 2000 * t.val + p.val; rw [e0]; omega
  | ⟨1, _⟩ => show win0_1.index t (1 : Fin 2) * 128 + 1 * k.val = k.val; rw [e1]; omega

/-- The neighbour weights' block is the whole matrix at every tile. -/
theorem wlBlock0_apply (c : Dev nD) (t : Fin cfg0.N) (k : Fin 128) (q : Fin 256) :
    (iblk0 V c 2 t : Vec Ideal S128x256 .f32) (ix2 k q) = (V c main_arg2 : S128x256.Idx → EReal) (ix2 k q) := by
  obtain ⟨-, -, -, -, e0, e1, -⟩ := tile_index0 t
  unfold iblk0
  rw [View.read_apply]
  show V c main_arg2 _ = V c main_arg2 _
  congr 1
  funext a
  apply Fin.ext
  match a with
  | ⟨0, _⟩ => show win0_2.index t (0 : Fin 2) * 128 + 1 * k.val = k.val; rw [e0]; omega
  | ⟨1, _⟩ => show win0_2.index t (1 : Fin 2) * 256 + 1 * q.val = q.val; rw [e1]; omega

/-- The root weights' block is the whole matrix at every tile. -/
theorem wrBlock0_apply (c : Dev nD) (t : Fin cfg0.N) (k : Fin 128) (q : Fin 256) :
    (iblk0 V c 3 t : Vec Ideal S128x256 .f32) (ix2 k q) = (V c main_arg3 : S128x256.Idx → EReal) (ix2 k q) := by
  obtain ⟨-, -, -, -, -, -, e0, e1, -⟩ := tile_index0 t
  unfold iblk0
  rw [View.read_apply]
  show V c main_arg3 _ = V c main_arg3 _
  congr 1
  funext a
  apply Fin.ext
  match a with
  | ⟨0, _⟩ => show win0_3.index t (0 : Fin 2) * 128 + 1 * k.val = k.val; rw [e0]; omega
  | ⟨1, _⟩ => show win0_3.index t (1 : Fin 2) * 256 + 1 * q.val = q.val; rw [e1]; omega

/-- The bias block is the whole bias row at every tile. -/
theorem biasBlock0_apply (c : Dev nD) (t : Fin cfg0.N) (q : Fin 256) :
    (iblk0 V c 4 t : Vec Ideal S1x256 .f32) (ix2 (0 : Fin 1) q) = (V c main_v25 : S1x256.Idx → EReal) (ix2 (0 : Fin 1) q) := by
  obtain ⟨-, -, -, -, -, -, -, -, e0, e1, -⟩ := tile_index0 t
  unfold iblk0
  rw [View.read_apply]
  show V c main_v25 _ = V c main_v25 _
  congr 1
  funext a
  apply Fin.ext
  match a with
  | ⟨0, _⟩ => show win0_4.index t (0 : Fin 2) * 1 + 1 * 0 = 0; rw [e0]
  | ⟨1, _⟩ => show win0_4.index t (1 : Fin 2) * 256 + 1 * q.val = q.val; rw [e1]; omega

/-- Element `(p, q)` of the result's block at tile `t` is element `(2000 t + p, q)` of the result. -/
theorem outBlock0_emb (t : Fin cfg0.N) (p : Fin 2000) (q : Fin 256) :
    ((cfg0.win 5).blk t).view.emb (ix2 p q) = (ix2 (tileRow0 t p) q : S50000x256.Idx) := by
  obtain ⟨-, -, -, -, -, -, -, -, -, -, e0, e1⟩ := tile_index0 t
  funext a
  apply Fin.ext
  match a with
  | ⟨0, _⟩ => show win0_5.index t (0 : Fin 2) * 2000 + 1 * p.val = 2000 * t.val + p.val; rw [e0]; omega
  | ⟨1, _⟩ => show win0_5.index t (1 : Fin 2) * 256 + 1 * q.val = q.val; rw [e1]; omega

/-- What the call leaves in its result: the combine step of the arrays it is entered with, clamped below at zero. -/
def layer0 (c : Dev nD) : S50000x256.Idx → EReal := fun i =>
  max (Cert.Sage.comb (V c main_v24 : S50000x128.Idx → EReal) (V c main_arg0 : S50000x128.Idx → EReal) (V c main_arg2 : S128x256.Idx → EReal)
    (V c main_arg3 : S128x256.Idx → EReal) (V c main_v25 : S1x256.Idx → EReal) (i 0) (i 1)) 0

/-- What tile `t` writes back is the block of `layer0` under it. -/
theorem flushed0_eq (c : Dev nD) (t : Fin cfg0.N) :
    (dat0 V c).flushed 5 t = ((cfg0.win 5).blk t).view.read (Elt Ideal) (layer0 V c) := by
  show (cfg0.win 5).cut (grid0.coords t) ((dat0 V c).after 5 t) = _
  rw [after0_5]
  unfold out0_5
  rw [View.canon_unit_zero zero_offsets0]
  simp only [View.ld_unit_zero (S := S2000x128) zero_offsets0, View.ld_unit_zero (S := S128x256) zero_offsets0,
    View.ld_unit_zero (S := S1x256) zero_offsets0]
  funext j
  obtain ⟨p, q, rfl⟩ : ∃ (p : Fin 2000) (q : Fin 256), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = layer0 V c (((cfg0.win 5).blk t).view.emb (ix2 p q))
  rw [pay0_apply, outBlock0_emb]
  unfold layer0 Cert.Sage.comb
  simp only [aggBlock0_apply, rootBlock0_apply, wlBlock0_apply, wrBlock0_apply, biasBlock0_apply]

/-- An index of the result is under tile `t`'s block iff each coordinate is in the block's range. -/
theorem mem_outBlock0 (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v26).slice (win0_5.rect t)).set ↔ _
  rw [View.set_slice_whole, Rect.mem_set_unit]
  exact Iff.rfl

/-- The 25 written-back tiles cover the result: row `n` is under tile `n / 2000`. -/
theorem covered0 (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  obtain ⟨-, -, -, -, -, -, -, -, -, -, e0, e1⟩ := tile_index0 t
  have ht : t.val = (i 0).val / 2000 := rfl
  refine ⟨t, flush0_5 t, ?_⟩
  rw [mem_outBlock0]
  intro a
  match a with
  | ⟨0, _⟩ =>
    show win0_5.index t (0 : Fin 2) * 2000 ≤ (i 0).val ∧ (i 0).val < win0_5.index t (0 : Fin 2) * 2000 + 2000
    rw [e0, ht]; omega
  | ⟨1, _⟩ =>
    show win0_5.index t (1 : Fin 2) * 256 ≤ (i 1).val ∧ (i 1).val < win0_5.index t (1 : Fin 2) * 256 + 256
    rw [e1]; omega

/-- The result array after the call. -/
theorem final0 (c : Dev nD) : (dat0 V c).arrAt 5 cfg0.N = layer0 V c :=
  (dat0 V c).arrAt_eq_of_cover 5 (layer0 V c) (fun t _ => flushed0_eq V c t) (covered0)

end Cert.KernelIdeal.Hand

end
-- ==== Proof.Region1.lean ====
/-
  The array that pallas_call 1 leaves, as one function of the arrays it is entered with.

  The call walks 25 tiles of 2000 rows.  At tile `t` the aggregated and the root features contribute rows
  `2000 t … 2000 t + 1999`, the two weight matrices and the bias row are taken whole, and the tile written back is rows
  `2000 t … 2000 t + 1999` of the result.  Row `n` lies in tile `n / 2000`, so the 25 write-backs cover the result, which
  therefore ends holding, at `(n, q)`, the combine step of the entry arrays at row `n` and column `q`.
-/
import proofs.«105659_j63522566308230_1_alg».proof.Proof.Gen.KernelIdeal.Frame
import proofs.«105659_j63522566308230_1_alg».proof.Proof.Body
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets1 : (![0, 0] : Fin 2 → Nat) = fun _ => 0 := funext fun a => by fin_cases a <;> rfl

/-- The printed index maps over the grid: the row-tiled windows sit at block row `t`, the whole-array windows at block zero. -/
theorem tile_index1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of tile `t` is row `2000 t + p` of the array. -/
def tileRow1 (t : Fin cfg1.N) (p : Fin 2000) : Fin 50000 :=
  ⟨2000 * t.val + p.val, by have h : t.val < 25 := lt_of_lt_of_eq t.isLt N_1; have := p.isLt; omega⟩

/-- The aggregated features' block at tile `t` is their rows `2000 t …`. -/
theorem aggBlock1_apply (c : Dev nD) (t : Fin cfg1.N) (p : Fin 2000) (k : Fin 256) :
    (iblk1 V c 0 t : Vec Ideal S2000x256 .f32) (ix2 p k) = (V c main_v38 : S50000x256.Idx → EReal) (ix2 (tileRow1 t p) k) := by
  obtain ⟨e0, e1, -⟩ := tile_index1 t
  unfold iblk1
  rw [View.read_apply]
  show V c main_v38 _ = V c main_v38 _
  congr 1
  funext a
  apply Fin.ext
  match a with
  | ⟨0, _⟩ => show win1_0.index t (0 : Fin 2) * 2000 + 1 * p.val = 2000 * t.val + p.val; rw [e0]; omega
  | ⟨1, _⟩ => show win1_0.index t (1 : Fin 2) * 256 + 1 * k.val = k.val; rw [e1]; omega

/-- The root features' block at tile `t` is their rows `2000 t …`. -/
theorem rootBlock1_apply (c : Dev nD) (t : Fin cfg1.N) (p : Fin 2000) (k : Fin 256) :
    (iblk1 V c 1 t : Vec Ideal S2000x256 .f32) (ix2 p k) = (V c main_v26 : S50000x256.Idx → EReal) (ix2 (tileRow1 t p) k) := by
  obtain ⟨-, -, e0, e1, -⟩ := tile_index1 t
  unfold iblk1
  rw [View.read_apply]
  show V c main_v26 _ = V c main_v26 _
  congr 1
  funext a
  apply Fin.ext
  match a with
  | ⟨0, _⟩ => show win1_1.index t (0 : Fin 2) * 2000 + 1 * p.val = 2000 * t.val + p.val; rw [e0]; omega
  | ⟨1, _⟩ => show win1_1.index t (1 : Fin 2) * 256 + 1 * k.val = k.val; rw [e1]; omega

/-- The neighbour weights' block is the whole matrix at every tile. -/
theorem wlBlock1_apply (c : Dev nD) (t : Fin cfg1.N) (k : Fin 256) (q : Fin 128) :
    (iblk1 V c 2 t : Vec Ideal S256x128 .f32) (ix2 k q) = (V c main_arg5 : S256x128.Idx → EReal) (ix2 k q) := by
  obtain ⟨-, -, -, -, e0, e1, -⟩ := tile_index1 t
  unfold iblk1
  rw [View.read_apply]
  show V c main_arg5 _ = V c main_arg5 _
  congr 1
  funext a
  apply Fin.ext
  match a with
  | ⟨0, _⟩ => show win1_2.index t (0 : Fin 2) * 256 + 1 * k.val = k.val; rw [e0]; omega
  | ⟨1, _⟩ => show win1_2.index t (1 : Fin 2) * 128 + 1 * q.val = q.val; rw [e1]; omega

/-- The root weights' block is the whole matrix at every tile. -/
theorem wrBlock1_apply (c : Dev nD) (t : Fin cfg1.N) (k : Fin 256) (q : Fin 128) :
    (iblk1 V c 3 t : Vec Ideal S256x128 .f32) (ix2 k q) = (V c main_arg6 : S256x128.Idx → EReal) (ix2 k q) := by
  obtain ⟨-, -, -, -, -, -, e0, e1, -⟩ := tile_index1 t
  unfold iblk1
  rw [View.read_apply]
  show V c main_arg6 _ = V c main_arg6 _
  congr 1
  funext a
  apply Fin.ext
  match a with
  | ⟨0, _⟩ => show win1_3.index t (0 : Fin 2) * 256 + 1 * k.val = k.val; rw [e0]; omega
  | ⟨1, _⟩ => show win1_3.index t (1 : Fin 2) * 128 + 1 * q.val = q.val; rw [e1]; omega

/-- The bias block is the whole bias row at every tile. -/
theorem biasBlock1_apply (c : Dev nD) (t : Fin cfg1.N) (q : Fin 128) :
    (iblk1 V c 4 t : Vec Ideal S1x128 .f32) (ix2 (0 : Fin 1) q) = (V c main_v39 : S1x128.Idx → EReal) (ix2 (0 : Fin 1) q) := by
  obtain ⟨-, -, -, -, -, -, -, -, e0, e1, -⟩ := tile_index1 t
  unfold iblk1
  rw [View.read_apply]
  show V c main_v39 _ = V c main_v39 _
  congr 1
  funext a
  apply Fin.ext
  match a with
  | ⟨0, _⟩ => show win1_4.index t (0 : Fin 2) * 1 + 1 * 0 = 0; rw [e0]
  | ⟨1, _⟩ => show win1_4.index t (1 : Fin 2) * 128 + 1 * q.val = q.val; rw [e1]; omega

/-- Element `(p, q)` of the result's block at tile `t` is element `(2000 t + p, q)` of the result. -/
theorem outBlock1_emb (t : Fin cfg1.N) (p : Fin 2000) (q : Fin 128) :
    ((cfg1.win 5).blk t).view.emb (ix2 p q) = (ix2 (tileRow1 t p) q : S50000x128.Idx) := by
  obtain ⟨-, -, -, -, -, -, -, -, -, -, e0, e1⟩ := tile_index1 t
  funext a
  apply Fin.ext
  match a with
  | ⟨0, _⟩ => show win1_5.index t (0 : Fin 2) * 2000 + 1 * p.val = 2000 * t.val + p.val; rw [e0]; omega
  | ⟨1, _⟩ => show win1_5.index t (1 : Fin 2) * 128 + 1 * q.val = q.val; rw [e1]; omega

/-- What the call leaves in its result: the combine step of the arrays it is entered with. -/
def layer1 (c : Dev nD) : S50000x128.Idx → EReal := fun i =>
  Cert.Sage.comb (V c main_v38 : S50000x256.Idx → EReal) (V c main_v26 : S50000x256.Idx → EReal) (V c main_arg5 : S256x128.Idx → EReal)
    (V c main_arg6 : S256x128.Idx → EReal) (V c main_v39 : S1x128.Idx → EReal) (i 0) (i 1)

/-- What tile `t` writes back is the block of `layer1` under it. -/
theorem flushed1_eq (c : Dev nD) (t : Fin cfg1.N) :
    (dat1 V c).flushed 5 t = ((cfg1.win 5).blk t).view.read (Elt Ideal) (layer1 V c) := by
  show (cfg1.win 5).cut (grid1.coords t) ((dat1 V c).after 5 t) = _
  rw [after1_5]
  unfold out1_5
  rw [View.canon_unit_zero zero_offsets1]
  simp only [View.ld_unit_zero (S := S2000x256) zero_offsets1, View.ld_unit_zero (S := S256x128) zero_offsets1,
    View.ld_unit_zero (S := S1x128) zero_offsets1]
  funext j
  obtain ⟨p, q, rfl⟩ : ∃ (p : Fin 2000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = layer1 V c (((cfg1.win 5).blk t).view.emb (ix2 p q))
  rw [pay1_apply, outBlock1_emb]
  unfold layer1 Cert.Sage.comb
  simp only [aggBlock1_apply, rootBlock1_apply, wlBlock1_apply, wrBlock1_apply, biasBlock1_apply]

/-- An index of the result is under tile `t`'s block iff each coordinate is in the block's range. -/
theorem mem_outBlock1 (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v40).slice (win1_5.rect t)).set ↔ _
  rw [View.set_slice_whole, Rect.mem_set_unit]
  exact Iff.rfl

/-- The 25 written-back tiles cover the result: row `n` is under tile `n / 2000`. -/
theorem covered1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨-, -, -, -, -, -, -, -, -, -, e0, e1⟩ := tile_index1 t
  have ht : t.val = (i 0).val / 2000 := rfl
  refine ⟨t, flush1_5 t, ?_⟩
  rw [mem_outBlock1]
  intro a
  match a with
  | ⟨0, _⟩ =>
    show win1_5.index t (0 : Fin 2) * 2000 ≤ (i 0).val ∧ (i 0).val < win1_5.index t (0 : Fin 2) * 2000 + 2000
    rw [e0, ht]; omega
  | ⟨1, _⟩ =>
    show win1_5.index t (1 : Fin 2) * 128 ≤ (i 1).val ∧ (i 1).val < win1_5.index t (1 : Fin 2) * 128 + 128
    rw [e1]; omega

/-- The result array after the call. -/
theorem final1 (c : Dev nD) : (dat1 V c).arrAt 5 cfg1.N = layer1 V c :=
  (dat1 V c).arrAt_eq_of_cover 5 (layer1 V c) (fun t _ => flushed1_eq V c t) (covered1)

end Cert.KernelIdeal.Hand

end
-- ==== Proof.KernelRun.lean ====
/-
  The run of the two-call program with its result named.

  The program is four segments: host operations, the first pallas_call, host operations, the second pallas_call.  The
  generated frame runs them and reads the argument arrays off the last boundary's contents; read at the result buffer
  instead, the same run says that the result ends holding what the second call's write-backs leave in its output array.
-/
import proofs.«105659_j63522566308230_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result buffer at the second call's output array after its 25 write-backs
    (entered from the contents the first three segments leave), and the arguments as launched. -/
theorem run_result : θ_run defs (onTc (τ := τ) (main (F := F))) ⟨m, fun _ => 0, ρ⟩ (fun r => ∀ c : Dev nD,
      r.2.mem ((c.tc : Thread nD τ).loc main_v40) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v40 (by decide))).trans (W4_arr m ρ c 5),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Hand

end
-- ==== Proof.RefAlgebra.lean ====
/-
  The reference's stages as functions, and the kernel program's host stages in the same vocabulary.

  The reference computes, per layer, `mean = sum / max(deg, 1)` (the neighbour sum a scatter-add of gathered rows, the
  degree a scatter-add of ones), then `mean · Wl + x · Wr + b`, with a maximum against zero after the first layer.  The
  kernel program's host side computes the reciprocal `1 / max(deg, 1)` once, as a column, and multiplies each layer's
  neighbour sum by it.  Here: the column broadcasts read at an element; the product with the reciprocal is the quotient
  (the clamped degree is not zero); and each layer read at an element is the combine step `Cert.Sage.comb`.
  The gathers and scatter-adds are never opened: both programs apply the same ones to the same operands.
-/
import proofs.«105659_j63522566308230_1_alg».proof.Proof.Gen.ReferenceIdeal.Read
import proofs.«105659_j63522566308230_1_alg».proof.Proof.LibPlainDot
import proofs.«105659_j63522566308230_1_alg».proof.Proof.Combine
import Idealize.ShloMosaic.Lib.ValueLayout
import Idealize.ShloMosaic.Lib.Pipeline.Value

noncomputable section

namespace Cert.ReferenceIdeal.Hand

open Cert.ReferenceIdeal Cert.ReferenceIdeal.Read Cert.ReferenceIdeal.Facts₀
open Idealize.ShloMosaic Idealize.ShloMosaic.ValueIdx

/-! ## A per-node column spread over the feature axis, read at an element -/

/-- A per-node vector turned into a column and spread over 128 features reads, at `(n, k)`, the vector at `n`. -/
theorem spread128_apply (u : FVec Ideal S50000 .f32) (n : Fin 50000) (k : Fin 128) :
    broadcastInDim S50000x128 ![0, 1] bcast_S50000x1_S50000x128_0_1
      (broadcastInDim S50000x1 ![0] bcast_S50000_S50000x1_0 u) (ix2 n k) = u (ix1 n) := by
  refine (broadcastInDim_apply _ bcast_S50000x1_S50000x128_0_1 _ (ix2 n k) (ix2 n (0 : Fin 1)) (fun a => ?_)).trans ?_
  · match a with
    | ⟨0, _⟩ => show n.val = if (50000 : Nat) = 1 then 0 else n.val; rw [if_neg (by decide)]
    | ⟨1, _⟩ => show 0 = if (1 : Nat) = 1 then 0 else k.val; rw [if_pos rfl]
  · exact broadcastInDim_apply _ bcast_S50000_S50000x1_0 u (ix2 n (0 : Fin 1)) (ix1 n) (fun a => match a with
      | ⟨0, _⟩ => by show n.val = if (50000 : Nat) = 1 then 0 else n.val; rw [if_neg (by decide)])

/-- The same over 256 features. -/
theorem spread256_apply (u : FVec Ideal S50000 .f32) (n : Fin 50000) (k : Fin 256) :
    broadcastInDim S50000x256 ![0, 1] bcast_S50000x1_S50000x256_0_1
      (broadcastInDim S50000x1 ![0] bcast_S50000_S50000x1_0 u) (ix2 n k) = u (ix1 n) := by
  refine (broadcastInDim_apply _ bcast_S50000x1_S50000x256_0_1 _ (ix2 n k) (ix2 n (0 : Fin 1)) (fun a => ?_)).trans ?_
  · match a with
    | ⟨0, _⟩ => show n.val = if (50000 : Nat) = 1 then 0 else n.val; rw [if_neg (by decide)]
    | ⟨1, _⟩ => show 0 = if (1 : Nat) = 1 then 0 else k.val; rw [if_pos rfl]
  · exact broadcastInDim_apply _ bcast_S50000_S50000x1_0 u (ix2 n (0 : Fin 1)) (ix1 n) (fun a => match a with
      | ⟨0, _⟩ => by show n.val = if (50000 : Nat) = 1 then 0 else n.val; rw [if_neg (by decide)])

/-- The per-node vector of ones. -/
abbrev ones : FVec Ideal S50000 .f32 := broadcastInDim S50000 ![] bcast_S_S50000 (constant S_ .f32 0x3F800000#32)

/-! ## Multiplying by the reciprocal of the clamped degree is dividing by it -/

theorem scale128 (S : FVec Ideal S50000x128 .f32) (d : FVec Ideal S50000 .f32) :
    mulf S (broadcastInDim S50000x128 ![0, 1] bcast_S50000x1_S50000x128_0_1
        (broadcastInDim S50000x1 ![0] bcast_S50000_S50000x1_0 (Host.divf ones (maximumf d ones))))
      = Host.divf S (broadcastInDim S50000x128 ![0, 1] bcast_S50000x1_S50000x128_0_1
        (broadcastInDim S50000x1 ![0] bcast_S50000_S50000x1_0 (maximumf d ones))) := by
  funext i
  obtain ⟨n, k, rfl⟩ : ∃ (n : Fin 50000) (k : Fin 128), i = ix2 n k := ⟨i 0, i 1, eq_ix2 i⟩
  show S (ix2 n k) * _ = Ideal.div (S (ix2 n k)) _
  rw [spread128_apply, spread128_apply]
  show S (ix2 n k) * Ideal.div (Ideal.ofBits .f32 0x3F800000#32) (max (d (ix1 n)) (Ideal.ofBits .f32 0x3F800000#32))
    = Ideal.div (S (ix2 n k)) (max (d (ix1 n)) (Ideal.ofBits .f32 0x3F800000#32))
  rw [Cert.Sage.ofBits_one_f32]
  exact Cert.Sage.mul_recip_eq_div _ _

theorem scale256 (S : FVec Ideal S50000x256 .f32) (d : FVec Ideal S50000 .f32) :
    mulf S (broadcastInDim S50000x256 ![0, 1] bcast_S50000x1_S50000x256_0_1
        (broadcastInDim S50000x1 ![0] bcast_S50000_S50000x1_0 (Host.divf ones (maximumf d ones))))
      = Host.divf S (broadcastInDim S50000x256 ![0, 1] bcast_S50000x1_S50000x256_0_1
        (broadcastInDim S50000x1 ![0] bcast_S50000_S50000x1_0 (maximumf d ones))) := by
  funext i
  obtain ⟨n, k, rfl⟩ : ∃ (n : Fin 50000) (k : Fin 256), i = ix2 n k := ⟨i 0, i 1, eq_ix2 i⟩
  show S (ix2 n k) * _ = Ideal.div (S (ix2 n k)) _
  rw [spread256_apply, spread256_apply]
  show S (ix2 n k) * Ideal.div (Ideal.ofBits .f32 0x3F800000#32) (max (d (ix1 n)) (Ideal.ofBits .f32 0x3F800000#32))
    = Ideal.div (S (ix2 n k)) (max (d (ix1 n)) (Ideal.ofBits .f32 0x3F800000#32))
  rw [Cert.Sage.ofBits_one_f32]
  exact Cert.Sage.mul_recip_eq_div _ _

/-! ## The kernel program's host stages, in the reference's vocabulary -/

/-- The reciprocal of the clamped degree, as a column (the kernel program computes it once and uses it in both layers). -/
def recipCol (x1 : (⟨S2x800000, .i32⟩ : BufTy).Contents (Elt Ideal)) : FVec Ideal S50000x1 .f32 :=
  broadcastInDim S50000x1 ![0] bcast_S50000_S50000x1_0 (Host.divf ones (val_main_v19 (F := Ideal) x1))

/-- Layer 1's aggregated features as the kernel program forms them: the neighbour sum times the reciprocal. -/
def scaledSum1 (x0 : (⟨S50000x128, .f32⟩ : BufTy).Contents (Elt Ideal)) (x1 : (⟨S2x800000, .i32⟩ : BufTy).Contents (Elt Ideal)) :
    FVec Ideal S50000x128 .f32 :=
  mulf (val_main_v13 (F := Ideal) x0 x1) (broadcastInDim S50000x128 ![0, 1] bcast_S50000x1_S50000x128_0_1 (recipCol x1))

/-- Layer 2's aggregated features as the kernel program forms them, from the hidden features `h`. -/
def scaledSum2 (h : FVec Ideal S50000x256 .f32) (x1 : (⟨S2x800000, .i32⟩ : BufTy).Contents (Elt Ideal)) :
    FVec Ideal S50000x256 .f32 :=
  mulf (Host.scatterAdd scatter_S50000x256_S800000x1_S800000x256_1_0_0_1 (val_main_v37 (F := Ideal)) (val_main_v38 (F := Ideal) x1)
      (Host.gather gather_S50000x256_S800000x1_S800000x256_1_0_n_n_0_1_1256 h (val_main_v35 (F := Ideal) x1)))
    (broadcastInDim S50000x256 ![0, 1] bcast_S50000x1_S50000x256_0_1 (recipCol x1))

/-- They are the reference's means. -/
theorem scaledSum1_eq (x0 : (⟨S50000x128, .f32⟩ : BufTy).Contents (Elt Ideal)) (x1 : (⟨S2x800000, .i32⟩ : BufTy).Contents (Elt Ideal)) :
    scaledSum1 x0 x1 = val_main_v22 (F := Ideal) x0 x1 :=
  scale128 (val_main_v13 (F := Ideal) x0 x1) (val_main_v17 (F := Ideal) x1)

theorem scaledSum2_eq (x0 : (⟨S50000x128, .f32⟩ : BufTy).Contents (Elt Ideal)) (x1 : (⟨S2x800000, .i32⟩ : BufTy).Contents (Elt Ideal))
    (x2 x3 : (⟨S128x256, .f32⟩ : BufTy).Contents (Elt Ideal)) (x4 : (⟨S256, .f32⟩ : BufTy).Contents (Elt Ideal)) :
    scaledSum2 (val_main_v29 (F := Ideal) x0 x1 x2 x3 x4) x1 = val_main_v48 (F := Ideal) x0 x1 x2 x3 x4 :=
  scale256 (val_main_v39 (F := Ideal) x0 x1 x2 x3 x4) (val_main_v17 (F := Ideal) x1)

/-! ## The two layers read at an element -/

/-- The reference's hidden features at `(n, q)`: the combine step of the mean, the features, the layer-1 weights and the
    bias read as a row, clamped below at zero. -/
theorem hidden_apply (A x0 : FVec Ideal S50000x128 .f32) (x2 x3 : FVec Ideal S128x256 .f32) (x4 : FVec Ideal S256 .f32)
    (B : FVec Ideal S1x256 .f32) (hB : ∀ q : Fin 256, B (ix2 (0 : Fin 1) q) = x4 (ix1 q)) (n : Fin 50000) (q : Fin 256) :
    maximumf (addf (addf (Host.dotGeneral dot_S50000x128_S128x256_S50000x256_1_0_0_1_n_n none A x2)
        (Host.dotGeneral dot_S50000x128_S128x256_S50000x256_1_0_0_1_n_n none x0 x3))
        (broadcastInDim S50000x256 ![0, 1] bcast_S1x256_S50000x256_0_1 (broadcastInDim S1x256 ![1] bcast_S256_S1x256_1 x4)))
      (broadcastInDim S50000x256 ![] bcast_S_S50000x256 (constant S_ .f32 0x00000000#32)) (ix2 n q)
      = max (Cert.Sage.comb A x0 x2 x3 B n q) 0 := by
  have e1 : Host.dotGeneral dot_S50000x128_S128x256_S50000x256_1_0_0_1_n_n none A x2 (ix2 n q)
      = ∑ k : Fin 128, A (ix2 n k) * x2 (ix2 k q) := Cert.Lib.dotGeneral_plain_apply none .single A x2 n q
  have e2 : Host.dotGeneral dot_S50000x128_S128x256_S50000x256_1_0_0_1_n_n none x0 x3 (ix2 n q)
      = ∑ k : Fin 128, x0 (ix2 n k) * x3 (ix2 k q) := Cert.Lib.dotGeneral_plain_apply none .single x0 x3 n q
  have e3 : broadcastInDim S50000x256 ![0, 1] bcast_S1x256_S50000x256_0_1 (broadcastInDim S1x256 ![1] bcast_S256_S1x256_1 x4) (ix2 n q)
      = x4 (ix1 q) := by
    refine (broadcastInDim_apply _ bcast_S1x256_S50000x256_0_1 _ (ix2 n q) (ix2 (0 : Fin 1) q) (fun a => ?_)).trans ?_
    · match a with
      | ⟨0, _⟩ => show 0 = if (1 : Nat) = 1 then 0 else n.val; rw [if_pos rfl]
      | ⟨1, _⟩ => show q.val = if (256 : Nat) = 1 then 0 else q.val; rw [if_neg (by decide)]
    · exact broadcastInDim_apply _ bcast_S256_S1x256_1 x4 (ix2 (0 : Fin 1) q) (ix1 q) (fun a => match a with
        | ⟨0, _⟩ => by show q.val = if (256 : Nat) = 1 then 0 else q.val; rw [if_neg (by decide)])
  show max ((Host.dotGeneral dot_S50000x128_S128x256_S50000x256_1_0_0_1_n_n none A x2 (ix2 n q)
      + Host.dotGeneral dot_S50000x128_S128x256_S50000x256_1_0_0_1_n_n none x0 x3 (ix2 n q))
      + broadcastInDim S50000x256 ![0, 1] bcast_S1x256_S50000x256_0_1 (broadcastInDim S1x256 ![1] bcast_S256_S1x256_1 x4) (ix2 n q))
      (Ideal.ofBits .f32 0x00000000#32) = _
  rw [e1, e2, e3, Ideal.ofBits_zero_f32]
  unfold Cert.Sage.comb
  rw [hB]

/-- The reference's output at `(n, q)`: the combine step of the mean of the hidden features, the hidden features, the
    layer-2 weights and the bias read as a row. -/
theorem output_apply (A h : FVec Ideal S50000x256 .f32) (x5 x6 : FVec Ideal S256x128 .f32) (x7 : FVec Ideal S128 .f32)
    (B : FVec Ideal S1x128 .f32) (hB : ∀ q : Fin 128, B (ix2 (0 : Fin 1) q) = x7 (ix1 q)) (n : Fin 50000) (q : Fin 128) :
    addf (addf (Host.dotGeneral dot_S50000x256_S256x128_S50000x128_1_0_0_1_n_n none A x5)
        (Host.dotGeneral dot_S50000x256_S256x128_S50000x128_1_0_0_1_n_n none h x6))
        (broadcastInDim S50000x128 ![0, 1] bcast_S1x128_S50000x128_0_1 (broadcastInDim S1x128 ![1] bcast_S128_S1x128_1 x7)) (ix2 n q)
      = Cert.Sage.comb A h x5 x6 B n q := by
  have e1 : Host.dotGeneral dot_S50000x256_S256x128_S50000x128_1_0_0_1_n_n none A x5 (ix2 n q)
      = ∑ k : Fin 256, A (ix2 n k) * x5 (ix2 k q) := Cert.Lib.dotGeneral_plain_apply none .single A x5 n q
  have e2 : Host.dotGeneral dot_S50000x256_S256x128_S50000x128_1_0_0_1_n_n none h x6 (ix2 n q)
      = ∑ k : Fin 256, h (ix2 n k) * x6 (ix2 k q) := Cert.Lib.dotGeneral_plain_apply none .single h x6 n q
  have e3 : broadcastInDim S50000x128 ![0, 1] bcast_S1x128_S50000x128_0_1 (broadcastInDim S1x128 ![1] bcast_S128_S1x128_1 x7) (ix2 n q)
      = x7 (ix1 q) := by
    refine (broadcastInDim_apply _ bcast_S1x128_S50000x128_0_1 _ (ix2 n q) (ix2 (0 : Fin 1) q) (fun a => ?_)).trans ?_
    · match a with
      | ⟨0, _⟩ => show 0 = if (1 : Nat) = 1 then 0 else n.val; rw [if_pos rfl]
      | ⟨1, _⟩ => show q.val = if (128 : Nat) = 1 then 0 else q.val; rw [if_neg (by decide)]
    · exact broadcastInDim_apply _ bcast_S128_S1x128_1 x7 (ix2 (0 : Fin 1) q) (ix1 q) (fun a => match a with
        | ⟨0, _⟩ => by show q.val = if (128 : Nat) = 1 then 0 else q.val; rw [if_neg (by decide)])
  show (Host.dotGeneral dot_S50000x256_S256x128_S50000x128_1_0_0_1_n_n none A x5 (ix2 n q)
      + Host.dotGeneral dot_S50000x256_S256x128_S50000x128_1_0_0_1_n_n none h x6 (ix2 n q))
      + broadcastInDim S50000x128 ![0, 1] bcast_S1x128_S50000x128_0_1 (broadcastInDim S1x128 ![1] bcast_S128_S1x128_1 x7) (ix2 n q) = _
  rw [e1, e2, e3]
  unfold Cert.Sage.comb
  rw [hB]

/-- The reference's hidden features are that expression of the layer-1 mean. -/
theorem hidden_eq (x0 : FVec Ideal S50000x128 .f32) (x1 : (⟨S2x800000, .i32⟩ : BufTy).Contents (Elt Ideal))
    (x2 x3 : FVec Ideal S128x256 .f32) (x4 : FVec Ideal S256 .f32) :
    val_main_v29 (F := Ideal) x0 x1 x2 x3 x4
      = (maximumf (addf (addf (Host.dotGeneral (φ₁ := .f32) dot_S50000x128_S128x256_S50000x256_1_0_0_1_n_n none (val_main_v22 (F := Ideal) x0 x1) x2)
        (Host.dotGeneral dot_S50000x128_S128x256_S50000x256_1_0_0_1_n_n none x0 x3))
        (broadcastInDim S50000x256 ![0, 1] bcast_S1x256_S50000x256_0_1 (broadcastInDim S1x256 ![1] bcast_S256_S1x256_1 x4)))
      (broadcastInDim S50000x256 ![] bcast_S_S50000x256 (constant S_ .f32 0x00000000#32)) : FVec Ideal S50000x256 .f32) := rfl

/-- The reference's result is that expression of the layer-2 mean and the hidden features. -/
theorem output_eq (x0 : FVec Ideal S50000x128 .f32) (x1 : (⟨S2x800000, .i32⟩ : BufTy).Contents (Elt Ideal))
    (x2 x3 : FVec Ideal S128x256 .f32) (x4 : FVec Ideal S256 .f32) (x5 x6 : FVec Ideal S256x128 .f32) (x7 : FVec Ideal S128 .f32) :
    val_main_v54 (F := Ideal) x0 x1 x2 x3 x4 x5 x6 x7
      = (addf (addf (Host.dotGeneral (φ₁ := .f32) dot_S50000x256_S256x128_S50000x128_1_0_0_1_n_n none (val_main_v48 (F := Ideal) x0 x1 x2 x3 x4) x5)
        (Host.dotGeneral (φ₁ := .f32) dot_S50000x256_S256x128_S50000x128_1_0_0_1_n_n none (val_main_v29 (F := Ideal) x0 x1 x2 x3 x4) x6))
        (broadcastInDim S50000x128 ![0, 1] bcast_S1x128_S50000x128_0_1 (broadcastInDim S1x128 ![1] bcast_S128_S1x128_1 x7)) : FVec Ideal S50000x128 .f32) := rfl

end Cert.ReferenceIdeal.Hand

end
-- ==== Proof.HostValues.lean ====
/-
  The contents of the buffers the two pallas_calls are entered with, in the reference's vocabulary.

  Before the first call the host side slices the edge list into sources and destinations, forms the degree, its clamped
  reciprocal as a column, the layer-1 neighbour sum and its product with the reciprocal, and reshapes the bias to a row.
  Between the calls it does the same for layer 2 from the first call's result.  Each buffer below is read off the fold of
  those operations over the launch memory; the right-hand sides are the reference's own stages (the slices, gathers and
  scatter-adds are the same functions of the same operands in both programs) and `Cert.ReferenceIdeal.Hand`'s
  reciprocal-scaled sums.
-/
import proofs.«105659_j63522566308230_1_alg».proof.Proof.Gen.KernelIdeal.Frame
import proofs.«105659_j63522566308230_1_alg».proof.Proof.RefAlgebra
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.Read
open Cert.ReferenceIdeal.Hand (scaledSum1 scaledSum2 recipCol)

variable (m : (ℓ : Loc nD τ sig) → Buf (Elt Ideal) ℓ) (ρ : Dev nD → PrngReg)

/-! ## At the first call's entry -/

theorem entry0_src (c : Dev nD) : W1 m ρ c (Proc.devRef .tc main_v1) = val_main_v1 (F := Ideal) (m ((c : Thread nD τ).loc main_arg1)) := by
  show StableHlo.after hostOps0 (W0 m ρ c) (Proc.devRef .tc main_v1) = _
  after_results_simp
  rfl

theorem entry0_dst (c : Dev nD) : W1 m ρ c (Proc.devRef .tc main_v3) = val_main_v3 (F := Ideal) (m ((c : Thread nD τ).loc main_arg1)) := by
  show StableHlo.after hostOps0 (W0 m ρ c) (Proc.devRef .tc main_v3) = _
  after_results_simp
  rfl

theorem entry0_recip (c : Dev nD) : W1 m ρ c (Proc.devRef .tc main_v12) = recipCol (m ((c : Thread nD τ).loc main_arg1)) := by
  show StableHlo.after hostOps0 (W0 m ρ c) (Proc.devRef .tc main_v12) = _
  after_results_simp
  rfl

theorem entry0_agg (c : Dev nD) :
    V1 m ρ c main_v24 = scaledSum1 (m ((c : Thread nD τ).loc main_arg0)) (m ((c : Thread nD τ).loc main_arg1)) := by
  show StableHlo.after hostOps0 (W0 m ρ c) (Proc.devRef .tc main_v24) = _
  after_results_simp
  rfl

theorem entry0_bias (c : Dev nD) :
    V1 m ρ c main_v25 = shapeCast S1x256 (m ((c : Thread nD τ).loc main_arg4)) shapeCasts_S256_S1x256 := by
  show StableHlo.after hostOps0 (W0 m ρ c) (Proc.devRef .tc main_v25) = _
  after_results_simp
  rfl

theorem entry0_arg0 (c : Dev nD) : V1 m ρ c main_arg0 = m ((c : Thread nD τ).loc main_arg0) := by
  show StableHlo.after hostOps0 (W0 m ρ c) (Proc.devRef .tc main_arg0) = _
  after_results_simp

theorem entry0_arg2 (c : Dev nD) : V1 m ρ c main_arg2 = m ((c : Thread nD τ).loc main_arg2) := by
  show StableHlo.after hostOps0 (W0 m ρ c) (Proc.devRef .tc main_arg2) = _
  after_results_simp

theorem entry0_arg3 (c : Dev nD) : V1 m ρ c main_arg3 = m ((c : Thread nD τ).loc main_arg3) := by
  show StableHlo.after hostOps0 (W0 m ρ c) (Proc.devRef .tc main_arg3) = _
  after_results_simp

theorem entry0_arg5 (c : Dev nD) : V1 m ρ c main_arg5 = m ((c : Thread nD τ).loc main_arg5) := by
  show StableHlo.after hostOps0 (W0 m ρ c) (Proc.devRef .tc main_arg5) = _
  after_results_simp

theorem entry0_arg6 (c : Dev nD) : V1 m ρ c main_arg6 = m ((c : Thread nD τ).loc main_arg6) := by
  show StableHlo.after hostOps0 (W0 m ρ c) (Proc.devRef .tc main_arg6) = _
  after_results_simp

theorem entry0_arg7 (c : Dev nD) : V1 m ρ c main_arg7 = m ((c : Thread nD τ).loc main_arg7) := by
  show StableHlo.after hostOps0 (W0 m ρ c) (Proc.devRef .tc main_arg7) = _
  after_results_simp

/-! ## At the second call's entry -/

theorem entry1_agg (c : Dev nD) :
    V3 m ρ c main_v38 = scaledSum2 (W2 m ρ c (Proc.devRef .tc main_v26)) (m ((c : Thread nD τ).loc main_arg1)) := by
  show StableHlo.after hostOps1 (W2 m ρ c) (Proc.devRef .tc main_v38) = _
  after_results_simp
  rw [W2_of_ne m ρ c main_v1 (by decide), W2_of_ne m ρ c main_v3 (by decide), W2_of_ne m ρ c main_v12 (by decide),
    entry0_src, entry0_dst, entry0_recip]
  rfl

theorem entry1_root (c : Dev nD) : V3 m ρ c main_v26 = W2 m ρ c (Proc.devRef .tc main_v26) := by
  show StableHlo.after hostOps1 (W2 m ρ c) (Proc.devRef .tc main_v26) = _
  after_results_simp

theorem entry1_bias (c : Dev nD) :
    V3 m ρ c main_v39 = shapeCast S1x128 (m ((c : Thread nD τ).loc main_arg7)) shapeCasts_S128_S1x128 := by
  show StableHlo.after hostOps1 (W2 m ρ c) (Proc.devRef .tc main_v39) = _
  after_results_simp
  rw [W2_of_ne m ρ c main_arg7 (by decide)]
  exact congrArg (fun x => shapeCast S1x128 x shapeCasts_S128_S1x128) (entry0_arg7 m ρ c)

theorem entry1_arg5 (c : Dev nD) : V3 m ρ c main_arg5 = m ((c : Thread nD τ).loc main_arg5) := by
  show StableHlo.after hostOps1 (W2 m ρ c) (Proc.devRef .tc main_arg5) = _
  after_results_simp
  rw [W2_of_ne m ρ c main_arg5 (by decide)]
  exact entry0_arg5 m ρ c

theorem entry1_arg6 (c : Dev nD) : V3 m ρ c main_arg6 = m ((c : Thread nD τ).loc main_arg6) := by
  show StableHlo.after hostOps1 (W2 m ρ c) (Proc.devRef .tc main_arg6) = _
  after_results_simp
  rw [W2_of_ne m ρ c main_arg6 (by decide)]
  exact entry0_arg6 m ρ c

end Cert.KernelIdeal.Hand

end
-- ==== Proof.KernelValue.lean ====
/-
  The kernel program's result is the reference's result function of the arguments.

  The first pallas_call is entered with the reciprocal-scaled layer-1 neighbour sum, which is the reference's layer-1
  mean, with the features, the layer-1 weights and the bias as a row; its result, the combine step clamped at zero, is
  element by element the reference's hidden features.  The second call is entered with the reciprocal-scaled layer-2
  neighbour sum of those hidden features, which is the reference's layer-2 mean, with the hidden features, the layer-2
  weights and bias; its result, the combine step, is element by element the reference's result.
-/
import proofs.«105659_j63522566308230_1_alg».proof.Proof.Region0
import proofs.«105659_j63522566308230_1_alg».proof.Proof.Region1
import proofs.«105659_j63522566308230_1_alg».proof.Proof.KernelRun
import proofs.«105659_j63522566308230_1_alg».proof.Proof.HostValues
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Cert.ReferenceIdeal.Read
open Cert.ReferenceIdeal.Hand (scaledSum1_eq scaledSum2_eq hidden_eq output_eq hidden_apply output_apply)

variable (m : (ℓ : Loc nD τ sig) → Buf (Elt Ideal) ℓ) (ρ : Dev nD → PrngReg)

/-- After the first call its result array holds the reference's hidden features of the arguments. -/
theorem hidden_value (c : Dev nD) :
    W2 m ρ c (Proc.devRef .tc main_v26)
      = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ((final0 (V1 m ρ) c).trans ?_)
  funext i
  obtain ⟨n, q, rfl⟩ : ∃ (n : Fin 50000) (q : Fin 256), i = ix2 n q := ⟨i 0, i 1, eq_ix2 i⟩
  unfold layer0
  rw [entry0_agg m ρ c, entry0_arg0 m ρ c, entry0_arg2 m ρ c, entry0_arg3 m ρ c, entry0_bias m ρ c, scaledSum1_eq, hidden_eq]
  exact (hidden_apply _ _ _ _ (m ((c : Thread nD τ).loc main_arg4)) _ (fun q => shapeCast_a_1a_apply _ _ (0 : Fin 1) q) n q).symm

/-- After the second call its result array holds the reference's result of the arguments. -/
theorem result_value (c : Dev nD) :
    (dat1 (V3 m ρ) c).arrAt 5 cfg1.N
      = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (final1 (V3 m ρ) c).trans ?_
  funext i
  obtain ⟨n, q, rfl⟩ : ∃ (n : Fin 50000) (q : Fin 128), i = ix2 n q := ⟨i 0, i 1, eq_ix2 i⟩
  unfold layer1
  rw [entry1_agg m ρ c, entry1_root m ρ c, hidden_value m ρ c, entry1_arg5 m ρ c, entry1_arg6 m ρ c, entry1_bias m ρ c,
    scaledSum2_eq, output_eq]
  exact (output_apply _ _ _ _ (m ((c : Thread nD τ).loc main_arg7)) _ (fun q => shapeCast_a_1a_apply _ _ (0 : Fin 1) q) n q).symm

/-- The kernel program's run: the result buffer ends at the reference's result function of the arguments, the arguments
    unchanged. -/
theorem run : θ_run defs (onTc (τ := τ) (main (F := Ideal))) ⟨m, fun _ => 0, ρ⟩ (fun r => ∀ c : Dev nD,
      r.2.mem ((c.tc : Thread nD τ).loc main_v40)
        = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_value m ρ c), (h c).2⟩) (run_result m ρ)

end Cert.KernelIdeal.Hand

end
-- ==== Proof.lean ====
/-
  A two-layer GraphSAGE with mean aggregation: a Pallas program against its jnp reference, equal over the extended reals.

  Both programs compute, for node features `x`, an edge list with sources `src` and destinations `dst`, and two layers of
  weights, `h = max(mean₁ · W1l + x · W1r + b1, 0)` and `out = mean₂ · W2l + h · W2r + b2`, where `meanₗ` is the sum over the
  edges into a node of the source rows, divided by `max(deg, 1)`.  The reference divides; the kernel program multiplies by
  the reciprocal `1 / max(deg, 1)`, computed once.  Since `max(deg, 1) ≥ 1` is never zero, and off zero the quotient
  `s / d` is `s · d⁻¹` for every extended real `s`, the two are the same number — no finiteness of the inputs is used.
  The gathers and scatter-adds are the same functions of the same operands in both programs and are never opened.
  The two combine steps run as pallas_calls over 25 tiles of 2000 rows with bf16 operands into f32 matrix products; over the
  extended reals the bf16 casts are the identity and each product is the plain sum over the feature axis, so tile by tile
  the calls write the rows of the reference's `dot_general` sums (`Proof/Region0`, `Proof/Region1` over `Proof/Body`).
  `Proof/KernelRun` names the result buffer in the program's run; `Proof/HostValues` reads the buffers each call is entered
  with; `Proof/RefAlgebra` holds the quotient law and the reference's layers read at an element; `Proof/KernelValue`
  joins them: the kernel program's result array is the reference's result function of the arguments.
-/
import proofs.«105659_j63522566308230_1_alg».proof.Defs
import proofs.«105659_j63522566308230_1_alg».proof.Proof.Gen.Kernel
import proofs.«105659_j63522566308230_1_alg».proof.Proof.Gen.Kernel.Skeleton
import proofs.«105659_j63522566308230_1_alg».proof.Proof.Gen.Kernel.Launch
import proofs.«105659_j63522566308230_1_alg».proof.Proof.Gen.Kernel.Points
import proofs.«105659_j63522566308230_1_alg».proof.Proof.Gen.Kernel.Frame
import proofs.«105659_j63522566308230_1_alg».proof.Proof.Gen.KernelIdeal
import proofs.«105659_j63522566308230_1_alg».proof.Proof.Gen.KernelIdeal.Skeleton
import proofs.«105659_j63522566308230_1_alg».proof.Proof.Gen.KernelIdeal.Launch
import proofs.«105659_j63522566308230_1_alg».proof.Proof.Gen.KernelIdeal.Points
import proofs.«105659_j63522566308230_1_alg».proof.Proof.Gen.KernelIdeal.Frame
import proofs.«105659_j63522566308230_1_alg».proof.Proof.Gen.ReferenceIdeal
import proofs.«105659_j63522566308230_1_alg».proof.Proof.Gen.ReferenceIdeal.Run
import proofs.«105659_j63522566308230_1_alg».proof.Proof.Gen.ReferenceIdeal.Read
import proofs.«105659_j63522566308230_1_alg».proof.Proof.Gen.Pre_finite_inputs
import proofs.«105659_j63522566308230_1_alg».proof.Proof.KernelValue
import Idealize.ShloMosaic.Adequacy
import Idealize.ShloMosaic.Init

noncomputable section

namespace Cert.Proof

open Idealize.ShloMosaic Idealize.SL.Sem

/-- The word-level program runs and leaves its arguments as launched. -/
theorem frame_kernel : Cert.frame_Kernel := fun m ρ _ => Cert.Kernel.Gen.frame m ρ

/-- The idealized program runs and leaves its arguments as launched. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the reference's result function of those arguments. -/
theorem algebraic : Cert.algebraic_KernelIdeal_ReferenceIdeal := by
  intro m ρ m' ρ' _ hagree
  refine ⟨fun c => Cert.ReferenceIdeal.Read.val_main_v54 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v54_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
